-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x64 : Shape := ⟨3, ![32, 2048, 64]⟩
abbrev S_ : Shape := ⟨0, ![]⟩

class Facts : Prop where
  bcast_S_S32x2048x64 : S_.BroadcastsInDim S32x2048x64 (![] : Fin 0 → Fin S32x2048x64.rank)
  reducesTo_S32x2048x64_S_d0_1_2 : S32x2048x64.ReducesTo [0, 1, 2] S_
  h_S_ : 0 < S_.numel

variable [Facts]

def fn {F : FTy → Type} [FloatOps F] (main_arg0 : FVec F S32x2048x64 .f32) (main_arg1 : FVec F S32x2048x64 .f32) (main_arg2 : FVec F S32x2048x64 .f32) : IVec S_ 1 :=
  let main_v0 : FVec F S32x2048x64 .f32 := Host.absf main_arg0
  let main_cst : FVec F S_ .f32 := constant S_ .f32 0x7F800000#32
  let main_v1 : FVec F S32x2048x64 .f32 := broadcastInDim S32x2048x64 ![] bcast_S_S32x2048x64 main_cst
  let main_v2 : IVec S32x2048x64 1 := cmpf .olt main_v0 main_v1
  let main_c : IVec S_ 1 := constantI S_ 1 1#1
  let main_v3 : IVec S_ 1 := (fun x v => Host.reduce IntOp.andi x v reducesTo_S32x2048x64_S_d0_1_2 h_S_) main_v2 main_c
  let main_v4 : FVec F S32x2048x64 .f32 := Host.absf main_arg1
  let main_cst_0 : FVec F S_ .f32 := constant S_ .f32 0x7F800000#32
  let main_v5 : FVec F S32x2048x64 .f32 := broadcastInDim S32x2048x64 ![] bcast_S_S32x2048x64 main_cst_0
  let main_v6 : IVec S32x2048x64 1 := cmpf .olt main_v4 main_v5
  let main_c_1 : IVec S_ 1 := constantI S_ 1 1#1
  let main_v7 : IVec S_ 1 := (fun x v => Host.reduce IntOp.andi x v reducesTo_S32x2048x64_S_d0_1_2 h_S_) main_v6 main_c_1
  let main_v8 : IVec S_ 1 := andi main_v3 main_v7
  let main_v9 : FVec F S32x2048x64 .f32 := Host.absf main_arg2
  let main_cst_2 : FVec F S_ .f32 := constant S_ .f32 0x7F800000#32
  let main_v10 : FVec F S32x2048x64 .f32 := broadcastInDim S32x2048x64 ![] bcast_S_S32x2048x64 main_cst_2
  let main_v11 : IVec S32x2048x64 1 := cmpf .olt main_v9 main_v10
  let main_c_3 : IVec S_ 1 := constantI S_ 1 1#1
  let main_v12 : IVec S_ 1 := (fun x v => Host.reduce IntOp.andi x v reducesTo_S32x2048x64_S_d0_1_2 h_S_) main_v11 main_c_3
  let main_v13 : IVec S_ 1 := andi main_v8 main_v12
  main_v13
-- ==== Kernel.lean ====
abbrev S32x2048x64 : Shape := ⟨3, ![32, 2048, 64]⟩
abbrev S32x2048x2048 : Shape := ⟨3, ![32, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x64, .f32⟩
  | .hbm, ⟨4, _⟩ => ⟨S32x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x64, .f32⟩
  | .local _ .vmem, ⟨7, _⟩ => ⟨S1x512x64, .f32⟩
  | .local _ .vmem, ⟨8, _⟩ => ⟨S1x512x2048, .f32⟩
  | .local _ .vmem, ⟨9, _⟩ => ⟨S1x512x2048, .f32⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S512x64_S1x512x64 : S512x64.ShapeCasts S1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .f32 = 32 ∨ (Rect.block (s := S32x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S32x2048x64.size a
  hwx0_3 : ∀ i : grid0.Coords, EltTy.bits .f32 = 32 ∨ (Rect.block (s := S32x2048x64) S1x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S32x2048x2048.size a
  hwx0_4 : ∀ i : grid0.Coords, EltTy.bits .f32 = 32 ∨ (Rect.block (s := S32x2048x2048) S1x512x2048.size (cc0_transform_4 i) (hinb0_4 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x2048x64 : Shape := ⟨3, ![32, 2048, 64]⟩
abbrev S_ : Shape := ⟨0, ![]⟩
abbrev S32x2048x2048 : Shape := ⟨3, ![32, 2048, 2048]⟩
abbrev S32x2048 : Shape := ⟨2, ![32, 2048]⟩
abbrev S32x2048x1 : Shape := ⟨3, ![32, 2048, 1]⟩

abbrev nBuf : Space → Nat
  | .hbm => 24
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S32x2048x2048, .f32⟩
  | .hbm, ⟨7, _⟩ => ⟨S32x2048x2048, .f32⟩
  | .hbm, ⟨8, _⟩ => ⟨S32x2048x2048, .f32⟩
  | .hbm, ⟨9, _⟩ => ⟨S_, .f32⟩
  | .hbm, ⟨10, _⟩ => ⟨S32x2048, .f32⟩
  | .hbm, ⟨11, _⟩ => ⟨S_, .f32⟩
  | .hbm, ⟨12, _⟩ => ⟨S32x2048, .f32⟩
  | .hbm, ⟨13, _⟩ => ⟨S32x2048, .f32⟩
  | .hbm, ⟨14, _⟩ => ⟨S32x2048x1, .f32⟩
  | .hbm, ⟨15, _⟩ => ⟨S32x2048x2048, .f32⟩
  | .hbm, ⟨16, _⟩ => ⟨S32x2048x2048, .f32⟩
  | .hbm, ⟨17, _⟩ => ⟨S32x2048x2048, .f32⟩
  | .hbm, ⟨18, _⟩ => ⟨S_, .f32⟩
  | .hbm, ⟨19, _⟩ => ⟨S32x2048, .f32⟩
  | .hbm, ⟨20, _⟩ => ⟨S32x2048x1, .f32⟩
  | .hbm, ⟨21, _⟩ => ⟨S32x2048x2048, .f32⟩
  | .hbm, ⟨22, _⟩ => ⟨S32x2048x2048, .f32⟩
  | .hbm, ⟨23, _⟩ => ⟨S32x2048x64, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S_S32x2048x2048 : S_.BroadcastsInDim S32x2048x2048 (![] : Fin 0 → Fin S32x2048x2048.rank)
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  dot_S32x2048x64_S32x2048x64_S32x2048x2048_2_2_1_1_0_0_wf : DotDims.WF S32x2048x64 S32x2048x64 S32x2048x2048 [2] [2] [1] [1] [0] [0]
  dot_S32x2048x2048_S32x2048x64_S32x2048x64_2_1_1_2_0_0_wf : DotDims.WF S32x2048x2048 S32x2048x64 S32x2048x64 [2] [1] [1] [2] [0] [0]

variable [Facts₀]

def dot_S32x2048x64_S32x2048x64_S32x2048x2048_2_2_1_1_0_0 : DotDims S32x2048x64 S32x2048x64 S32x2048x2048 where
  lhsContracting := [2]
  rhsContracting := [2]
  lhsNonContracting := [1]
  rhsNonContracting := [1]
  lhsBatch := [0]
  rhsBatch := [0]
  wf := dot_S32x2048x64_S32x2048x64_S32x2048x2048_2_2_1_1_0_0_wf
def dot_S32x2048x2048_S32x2048x64_S32x2048x64_2_1_1_2_0_0 : DotDims S32x2048x2048 S32x2048x64 S32x2048x64 where
  lhsContracting := [2]
  rhsContracting := [1]
  lhsNonContracting := [1]
  rhsNonContracting := [2]
  lhsBatch := [0]
  rhsBatch := [0]
  wf := dot_S32x2048x2048_S32x2048x64_S32x2048x64_2_1_1_2_0_0_wf

class Facts : Prop extends Facts₀ where

variable [Facts]
-- ==== Proof.Spec.lean ====
/-
  Scaled dot-product attention over 32 batches of 2048 queries and 2048 keys of width 64, as one function of the three
  argument arrays, entry by entry, on the extended reals.

  A row of scores `s : Fin 2048 → EReal` is normalised by the stabilised softmax: with `M` the largest score of the row
  (the fold of `max` from `-∞`), entry `k` is `exp (s k - M)` divided by the sum over the row of `exp (s k' - M)`.
  The attention matrix of batch `b` at `(q, k)` is that softmax of query `q`'s row of scores; the output at `(q, d)` is the
  sum over the keys of the attention entries times the value rows.

  The two programs differ only in how a score is spelt.  One scales the query row by the constant `1/8` entry by entry
  before the dot product with the key row (`scoreK`); the other takes the dot product first and divides it by
  `64 ^ (1/2)` (`scoreR`).  Everything after the scores is stated once, over an arbitrary score function.
-/
import Idealize.ShloMosaic.PureOps.Ideal
import Idealize.ShloMosaic.Lib.ValueIdx

noncomputable section

open scoped BigOperators

namespace Cert.Attn

open Idealize.ShloMosaic Idealize.ShloMosaic.ValueIdx

/-- A query, key or value array: 32 batches of 2048 rows of width 64. -/
abbrev Arr := (⟨3, ![32, 2048, 64]⟩ : Shape).Idx → EReal
/-- An attention array: 32 batches of 2048 query rows by 2048 keys. -/
abbrev Att := (⟨3, ![32, 2048, 2048]⟩ : Shape).Idx → EReal

/-- The largest score of a row, as the fold of `max` over the row from `-∞` (the float pattern of negative infinity). -/
def rowMax (s : Fin 2048 → EReal) : EReal :=
  (Finset.univ : Finset (Fin 2048)).fold max (Ideal.ofBits .f32 0xFF800000#32) s

/-- The stabilised softmax of a row of scores at key `k`. -/
def softRow (s : Fin 2048 → EReal) (k : Fin 2048) : EReal :=
  Ideal.div (Ideal.exp (s k - rowMax s)) (∑ k' : Fin 2048, Ideal.exp (s k' - rowMax s))

/-- A score with the query row scaled first: `Σ_d (Q(b,q,d) · 1/8) · K(b,k,d)`, the `1/8` as its float pattern. -/
def scoreK (Q K : Arr) (b : Fin 32) (q k : Fin 2048) : EReal :=
  ∑ d : Fin 64, (Q (ix3 b q d) * Ideal.ofBits .f32 0x3E000000#32) * K (ix3 b k d)

/-- A score with the dot product divided afterwards: `(Σ_d Q(b,q,d) · K(b,k,d)) / 64^(1/2)`, `64` and `1/2` as their
    float patterns. -/
def scoreR (Q K : Arr) (b : Fin 32) (q k : Fin 2048) : EReal :=
  Ideal.div (∑ d : Fin 64, Q (ix3 b q d) * K (ix3 b k d))
    (Ideal.pow (Ideal.ofBits .f32 0x42800000#32) (Ideal.ofBits .f32 0x3F000000#32))

/-- The attention entry of batch `b` at query `q` and key `k`, over a score function. -/
def attnAt (score : Fin 32 → Fin 2048 → Fin 2048 → EReal) (b : Fin 32) (q k : Fin 2048) : EReal :=
  softRow (score b q) k

/-- The output entry of batch `b` at query `q` and column `d`: the attention row against column `d` of the values. -/
def outAt (score : Fin 32 → Fin 2048 → Fin 2048 → EReal) (V : Arr) (b : Fin 32) (q : Fin 2048) (d : Fin 64) : EReal :=
  ∑ k : Fin 2048, attnAt score b q k * V (ix3 b k d)

/-- The attention array. -/
def attn (score : Fin 32 → Fin 2048 → Fin 2048 → EReal) : Att := fun i =>
  attnAt score ⟨(i 0).val, (i 0).isLt⟩ ⟨(i 1).val, (i 1).isLt⟩ ⟨(i 2).val, (i 2).isLt⟩

/-- The output array. -/
def out (score : Fin 32 → Fin 2048 → Fin 2048 → EReal) (V : Arr) : Arr := fun i =>
  outAt score V ⟨(i 0).val, (i 0).isLt⟩ ⟨(i 1).val, (i 1).isLt⟩ ⟨(i 2).val, (i 2).isLt⟩

theorem attn_ix3 (score : Fin 32 → Fin 2048 → Fin 2048 → EReal) (b : Fin 32) (q k : Fin 2048) :
    attn score (ix3 b q k) = attnAt score b q k := rfl

theorem out_ix3 (score : Fin 32 → Fin 2048 → Fin 2048 → EReal) (V : Arr) (b : Fin 32) (q : Fin 2048) (d : Fin 64) :
    out score V (ix3 b q d) = outAt score V b q d := rfl

end Cert.Attn

end
-- ==== Proof.LibKeepdims.lean ====
/-
  Row reductions that keep their axis, read at an index.

  A kernel's `jnp.max(x, axis=-1, keepdims=True)` or `jnp.sum(…, keepdims=True)` on an `[a, b]` array prints as a lane
  reduction to `[a]`, a shape cast to the column `[a, 1]` and a broadcast of the column back to `[a, b]`.  Read at
  `(r, c)` each step names one index of its operand: the broadcast reads the column at `(r, 0)`, the cast reads the vector
  at `r`, and the reduction at `r` runs over the row `k ↦ (r, k)` — as a fold of `max` from the accumulator's value for a
  maximum, as a plain sum for an addition.  All at any extents `a`, `b` and any float format; the indices are written by
  coordinates (`ix1`, `ix2`), so each lemma applies to a printed operation by unification.
-/
import Idealize.ShloMosaic.Lib.ValueLayout
import Idealize.ShloMosaic.PureOps.Ideal.Laws

namespace Idealize.ShloMosaic.ValueIdx

open Idealize.ShloMosaic

variable {α : Type}

/-- An `[a]` vector cast to the column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Over a reduction of `[a, b]` along its last axis, the source index above `r` with `k` on the dropped axis is `(r, k)`. -/
theorem lift_row {a b : ℕ} (h : (⟨2, ![a, b]⟩ : Shape).Reduces [(1 : Fin 2)] ⟨1, ![a]⟩) (r : Fin a) (k : Fin b) :
    h.lift (ix1 r) k = ix2 r k :=
  funext fun c => Fin.ext (by match c with | ⟨0, _⟩ => rfl | ⟨1, _⟩ => rfl)

variable {φ : FTy}

/-- A lane maximum of an `[a, b]` array at row `r`, at the exact values: the fold of `max` from the accumulator's value over the row. -/
theorem multiReduction_maximumf_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (r : Fin a) :
    multiReduction .maximumf [(1 : Fin 2)] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (Finset.fold max (Ideal.ofBits φ acc) · (Finset.univ : Finset (Fin b))) (funext fun k => congrArg src (lift_row h r k))

/-- A lane sum of an `[a, b]` array at row `r`, at the exact values: the sum over the row. -/
theorem multiReduction_add_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (r : Fin a) :
    multiReduction .add [(1 : Fin 2)] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end Idealize.ShloMosaic.ValueIdx
-- ==== Proof.LibNtMatmul.lean ====
/-
  A product against a transposed right operand, read at an entry, at the extended reals.

  A kernel's `q · kᵀ` prints as a matrix product whose dimension numbers contract the LAST axis of both operands
  (rows of the left against rows of the right).  Accumulated into the zero block, its entry (a, b) is the sum over the
  shared axis of the products of the entries: the accumulator adds nothing and, on the extended reals, nothing is rounded
  and no order of the summands is left.  Generic in the three extents, the two operand formats and the precision key.
-/
import Idealize.ShloMosaic.Lib.ValueIdx
import Idealize.ShloMosaic.PureOps.Ideal.Laws

noncomputable section

open scoped BigOperators

namespace Cert.LibNtMatmul

open Idealize.ShloMosaic Idealize.ShloMosaic.ValueIdx

/-- `A · Bᵀ` of an m×k block by an n×k block into the zero block: entry `(a, b)` is `Σ_c A(a,c)·B(b,c)`. -/
theorem matmul_nt_zero_apply {m k n : Nat} {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant (F := Ideal) ⟨2, ![m, n]⟩ .f32 0x00000000#32) (ix2 a b)
      = ∑ c : Fin k, A (ix2 a c) * B (ix2 b c) := by
  show FloatOps.matmul _ prec A B _ (ix2 a b) = _
  rw [Ideal.matmul_constant_zero_apply, ← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

end Cert.LibNtMatmul

end
-- ==== Proof.LibPlainMatmul.lean ====
/-
  A kernel's plain matrix product read at an entry, at the extended reals.
-/
import Idealize.ShloMosaic.Lib.StackMember
import Idealize.ShloMosaic.Lib.KernelVsHost

noncomputable section

namespace Cert.LibPlainMatmul

open Idealize.ShloMosaic Idealize.ShloMosaic.ValueIdx

/-- The product of an m×k block by a k×n block (rows by columns, no batch axis) accumulated into the zero block: its
    entry (a, b) is the sum over the contracted coordinate of the products of the entries — the accumulator adds nothing
    and, on the extended reals, nothing is rounded and no order of the summands is left. Generic in the three extents,
    the two operand formats and the precision key. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

end Cert.LibPlainMatmul

end
-- ==== Proof.Payload.lean ====
/-
  The kernel body's two stored values at an entry, over arbitrary loaded blocks.

  The first value is a block of probabilities.  Its scores are a product of the query block, scaled by `1/8`, against the
  rows of the key block; every row of scores is shifted by its largest entry, exponentiated, and divided by the sum of the
  row's exponentials.  Each step is read at an entry: the product as a sum over the width, the row maximum as the fold of
  `max` from `-∞`, the row sum as a sum over the keys, and the column of maxima (or of sums) spread back along the row as
  the column's entry of that row.  The part after the scores is stated over an arbitrary block of scores.

  The second value is the product of the probabilities against the value block, rows by columns, with a unit axis put in
  front: its entry is the sum over the keys of the probabilities of the row times the value entries of the column.
-/
import proofs.«133944_j68015102099779_2_alg».proof.Proof.Gen.KernelIdeal.Skeleton
import proofs.«133944_j68015102099779_2_alg».proof.Proof.Spec
import proofs.«133944_j68015102099779_2_alg».proof.Proof.LibKeepdims
import proofs.«133944_j68015102099779_2_alg».proof.Proof.LibNtMatmul
import proofs.«133944_j68015102099779_2_alg».proof.Proof.LibPlainMatmul

noncomputable section

open scoped BigOperators

namespace Cert.Attn.Body

open Idealize.ShloMosaic Idealize.ShloMosaic.ValueIdx Cert.KernelIdeal Cert.KernelIdeal.Gen

/-- The exponential of a block read at an entry is the exponential of the entry. -/
theorem pay_exp_entry {s : Shape} {φ : FTy} (a : FVec Ideal s φ) (i : s.Idx) : exp a i = Ideal.exp (a i) := rfl

/-- A vector over the 512 rows, cast to the column `[512, 1]` and broadcast along the rows to `[512, 2048]`, reads at
    `(p, k)` the vector at `p`. -/
theorem pay_column_spread (v : FVec Ideal S512 .f32) (hc : S512.ShapeCasts S512x1) (hb : S512x1.Broadcasts S512x2048)
    (p : Fin 512) (k : Fin 2048) :
    broadcastTo S512x2048 (shapeCast S512x1 v hc) hb (ix2 p k) = v (ix1 p) :=
  (broadcastTo_a1_ab_apply (shapeCast S512x1 v hc) hb p k).trans (shapeCast_a_a1_apply v hc p (0 : Fin 1))

/-- The exponentials of a block of scores, every row shifted by its largest entry: at `(p, k)` it is
    `exp (S(p,k) - max_k' S(p,k'))`, the maximum as the fold of `max` over the row from `-∞`. -/
theorem pay_shifted_exp (S : FVec Ideal S512x2048 .f32) (hr : S512x2048.Reduces [1] S512) (hφ : FKind.Formats .f32)
    (hm : (0xFF800000#32 : BitVec (FTy.bits .f32)) = FKind.maximumf.neutral .f32 hφ)
    (hc : S512.ShapeCasts S512x1) (hb : S512x1.Broadcasts S512x2048) (p : Fin 512) (k : Fin 2048) :
    exp (subf S (broadcastTo S512x2048 (shapeCast S512x1
        (multiReduction (F := Ideal) .maximumf [1] S512 S 0xFF800000#32 hr hφ hm) hc) hb)) (ix2 p k)
      = Ideal.exp (S (ix2 p k) - rowMax (fun k' => S (ix2 p k'))) := by
  refine (pay_exp_entry _ _).trans (congrArg Ideal.exp ?_)
  refine (subf_apply _ _ _).trans (congrArg (fun m => S (ix2 p k) - m) ?_)
  refine (pay_column_spread _ hc hb p k).trans ?_
  exact multiReduction_maximumf_row S 0xFF800000#32 hr hφ hm p

/-- A block `E` divided by its row sums: when `E` holds the shifted exponentials of the scores `S`, the entry `(p, k)`
    is the softmax of row `p` of `S` at `k`. -/
theorem pay_normalised (S E : FVec Ideal S512x2048 .f32)
    (hE : ∀ (p : Fin 512) (k : Fin 2048), E (ix2 p k) = Ideal.exp (S (ix2 p k) - rowMax (fun k' => S (ix2 p k'))))
    (hr : S512x2048.Reduces [1] S512) (hφ : FKind.Formats .f32)
    (ha : (0x00000000#32 : BitVec (FTy.bits .f32)) = FKind.add.neutral .f32 hφ)
    (hc : S512.ShapeCasts S512x1) (hb : S512x1.Broadcasts S512x2048) (p : Fin 512) (k : Fin 2048) :
    divf E (broadcastTo S512x2048 (shapeCast S512x1
        (multiReduction (F := Ideal) .add [1] S512 E 0x00000000#32 hr hφ ha) hc) hb) (ix2 p k)
      = softRow (fun k' => S (ix2 p k')) k := by
  refine (divf_apply _ _ _).trans ?_
  unfold softRow
  refine congrArg₂ Ideal.div (hE p k) ?_
  refine (pay_column_spread _ hc hb p k).trans ?_
  refine (multiReduction_add_row E 0x00000000#32 hr hφ ha p).trans ?_
  exact Finset.sum_congr rfl fun k' _ => hE p k'

/-- The block of scores: the query block scaled by `1/8` against the rows of the key block; entry `(p, k)` is the sum
    over the width of the scaled query entries of row `p` times the key entries of row `k`. -/
theorem pay_scores (x0 : Vec Ideal S1x512x64 .f32) (x1 : Vec Ideal S1x2048x64 .f32)
    (h0 : S1x512x64.ShapeCasts S512x64) (h1 : S1x2048x64.ShapeCasts S2048x64) (hlt : FTy.bits .bf16 < FTy.bits .f32)
    (p : Fin 512) (k : Fin 2048) :
    matmul dot_S512x64_S2048x64_S512x2048_1_1_0_0_n_n none
        (truncf .bf16 (mulf (shapeCast S512x64 x0 h0) (broadcast S512x64 (Scalar.ofBits (F := Ideal) .f32 0x3E000000#32))) hlt)
        (truncf .bf16 (shapeCast S2048x64 x1 h1) hlt) (constant (F := Ideal) S512x2048 .f32 0x00000000#32) (ix2 p k)
      = ∑ d : Fin 64, (x0 (ix3 (0 : Fin 1) p d) * Ideal.ofBits .f32 0x3E000000#32) * x1 (ix3 (0 : Fin 1) k d) := by
  refine (Cert.LibNtMatmul.matmul_nt_zero_apply none _ _ p k).trans ?_
  refine Finset.sum_congr rfl fun d _ => ?_
  refine congrArg₂ (fun a b : EReal => a * b) ?_ ?_
  · refine (truncf_apply (ψ := .bf16) _ hlt _).trans ((mulf_apply _ _ _).trans ?_)
    exact congrArg (fun a : EReal => a * Ideal.ofBits .f32 0x3E000000#32) (shapeCast_1ab_ab_apply x0 h0 p d)
  · exact (truncf_apply (ψ := .bf16) _ hlt _).trans (shapeCast_1ab_ab_apply x1 h1 k d)

/-- The normalised probabilities of a block: entry `(p, k)` is the softmax, at key `k`, of query row `p`'s scores against
    every key row of the key block, the query row scaled by `1/8` first. -/
theorem pay1_apply (x0 : Vec Ideal S1x512x64 .f32) (x1 : Vec Ideal S1x2048x64 .f32) (p : Fin 512) (k : Fin 2048) :
    k0_pay1 (F := Ideal) x0 x1 (ix2 p k)
      = softRow (fun k' => ∑ d : Fin 64, (x0 (ix3 (0 : Fin 1) p d) * Ideal.ofBits .f32 0x3E000000#32) * x1 (ix3 (0 : Fin 1) k' d)) k := by
  unfold k0_pay1
  refine (pay_normalised _ _ (fun p k => pay_shifted_exp _ _ _ _ _ _ p k) _ _ _ _ _ p k).trans ?_
  exact congrArg (fun s => softRow s k) (funext fun k' => pay_scores x0 x1 _ _ _ p k')

/-- The output block: entry `(p, d)` is the sum over the keys of the probabilities of row `p` times column `d` of the
    value block. -/
theorem pay3_apply (x0 : Vec Ideal S1x512x64 .f32) (x1 x2 : Vec Ideal S1x2048x64 .f32) (u : Fin 1) (p : Fin 512) (d : Fin 64) :
    k0_pay3 (F := Ideal) x0 x1 x2 (ix3 u p d)
      = ∑ k : Fin 2048, k0_pay1 (F := Ideal) x0 x1 (ix2 p k) * x2 (ix3 (0 : Fin 1) k d) := by
  unfold k0_pay3
  refine (shapeCast_ab_1ab_apply _ _ u p d).trans ?_
  refine (Cert.LibPlainMatmul.matmul_plain_zero_apply none _ _ p d).trans ?_
  refine Finset.sum_congr rfl fun c _ => ?_
  refine congrArg₂ (fun a b : EReal => a * b) (truncf_apply (φ := .f32) (ψ := .bf16) _ _ _) ?_
  exact (truncf_apply (φ := .f32) (ψ := .bf16) _ _ _).trans (shapeCast_1ab_ab_apply x2 _ c d)

end Cert.Attn.Body

end
-- ==== Proof.Blocks.lean ====
/-
  From the blocks a grid point writes to the two whole result arrays.

  The grid has 32 × 4 points.  The point of batch `b` and tile `j` reads query rows `512·j … 512·j + 511` of batch `b`
  and every key and value row of that batch, and writes rows `512·j … 512·j + 511` of batch `b` of the attention array
  (all 2048 columns) and of the output array (all 64 columns).  How the five index maps sit against each other is decided
  once over the 128 points (`idx_facts`), and that every (batch, tile) pair is some point's (`idx_onto`).

  An entry of a point's probability block is the softmax of that query row's scores against the batch's key rows, the
  scores read from the blocks — which are the argument arrays read at the rows above (`q_block`, `k_block`, `v_block`):
  so the block is the point's block of the attention function of the whole argument arrays (`prob_block`,
  `flushed4_eq`), and likewise the output block (`flushed3_eq`).  Every entry of either result array lies in the block
  of the point of its batch and of its row's tile (`cover4`, `cover3`), so after the run each array is that function
  (`final4`, `final3`), and the kernel's run is restated with its results named so (`run`).
-/
import proofs.«133944_j68015102099779_2_alg».proof.Proof.Gen.KernelIdeal.Value
import proofs.«133944_j68015102099779_2_alg».proof.Proof.Payload
import Idealize.ShloMosaic.Lib.Pipeline.Value

noncomputable section

open scoped BigOperators

namespace Cert.Attn.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

theorem idx_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = win0_4.index t (1 : Fin 3) ∧ win0_3.index t (2 : Fin 3) = 0
    ∧ win0_4.index t (2 : Fin 3) = 0 ∧ win0_4.index t (0 : Fin 3) < 32 ∧ win0_4.index t (1 : Fin 3) < 4 :=
  (by decide +kernel : ∀ t : Fin grid0.N, _)

theorem idx_onto : ∀ (b : Fin 32) (qi : Fin 4), ∃ t : Fin cfg0.N, win0_4.index t = ![b.val, qi.val, 0] :=
  (by decide +kernel : ∀ (b : Fin 32) (qi : Fin 4), ∃ t : Fin grid0.N, win0_4.index t = ![b.val, qi.val, 0])

/-- The query block of a point holds rows `index · 512 + p` of the point's batch. -/
theorem q_block (c : Dev nD) (t : Fin cfg0.N) (b : Fin 32) (q : Fin 2048) (u : Fin 1) (p : Fin 512) (d : Fin 64)
    (hb : win0_4.index t (0 : Fin 3) = b.val) (hq : win0_4.index t (1 : Fin 3) * 512 + p.val = q.val) :
    iblk m c 0 t (ix3 u p d) = V m c main_arg0 (ix3 b q d) := by
  show V m c main_arg0 (((cfg0.win 0).blk t).view.emb (ix3 u p d)) = V m c main_arg0 (ix3 b q d)
  refine congrArg (V m c main_arg0) ?_
  obtain ⟨e00, e01, e02, -⟩ := idx_facts t
  have hu := u.isLt
  funext a; apply Fin.ext
  match a with
  | ⟨0, _⟩ => show win0_0.index t (0 : Fin 3) * 1 + 1 * u.val = b.val; omega
  | ⟨1, _⟩ => show win0_0.index t (1 : Fin 3) * 512 + 1 * p.val = q.val; omega
  | ⟨2, _⟩ => show win0_0.index t (2 : Fin 3) * 64 + 1 * d.val = d.val; omega

/-- The key block of a point holds every row of the point's batch. -/
theorem k_block (c : Dev nD) (t : Fin cfg0.N) (b : Fin 32) (u : Fin 1) (k : Fin 2048) (d : Fin 64)
    (hb : win0_4.index t (0 : Fin 3) = b.val) :
    iblk m c 1 t (ix3 u k d) = V m c main_arg1 (ix3 b k d) := by
  show V m c main_arg1 (((cfg0.win 1).blk t).view.emb (ix3 u k d)) = V m c main_arg1 (ix3 b k d)
  refine congrArg (V m c main_arg1) ?_
  obtain ⟨-, -, -, e10, e11, e12, -⟩ := idx_facts t
  have hu := u.isLt
  funext a; apply Fin.ext
  match a with
  | ⟨0, _⟩ => show win0_1.index t (0 : Fin 3) * 1 + 1 * u.val = b.val; omega
  | ⟨1, _⟩ => show win0_1.index t (1 : Fin 3) * 2048 + 1 * k.val = k.val; omega
  | ⟨2, _⟩ => show win0_1.index t (2 : Fin 3) * 64 + 1 * d.val = d.val; omega

/-- Where an entry of a point's probability block sits in the attention array. -/
theorem emb4 (t : Fin cfg0.N) (b : Fin 32) (q : Fin 2048) (u : Fin 1) (p : Fin 512) (k : Fin 2048)
    (hb : win0_4.index t (0 : Fin 3) = b.val) (hq : win0_4.index t (1 : Fin 3) * 512 + p.val = q.val) :
    ((cfg0.win 4).blk t).view.emb (ix3 u p k) = ix3 b q k := by
  obtain ⟨-, -, -, -, -, -, -, -, -, -, -, -, e42, -⟩ := idx_facts t
  have hu := u.isLt
  funext a; apply Fin.ext
  match a with
  | ⟨0, _⟩ => show win0_4.index t (0 : Fin 3) * 1 + 1 * u.val = b.val; omega
  | ⟨1, _⟩ => show win0_4.index t (1 : Fin 3) * 512 + 1 * p.val = q.val; omega
  | ⟨2, _⟩ => show win0_4.index t (2 : Fin 3) * 2048 + 1 * k.val = k.val; omega

/-- The value block of a point holds every row of the point's batch. -/
theorem v_block (c : Dev nD) (t : Fin cfg0.N) (b : Fin 32) (u : Fin 1) (k : Fin 2048) (d : Fin 64)
    (hb : win0_4.index t (0 : Fin 3) = b.val) :
    iblk m c 2 t (ix3 u k d) = V m c main_arg2 (ix3 b k d) := by
  show V m c main_arg2 (((cfg0.win 2).blk t).view.emb (ix3 u k d)) = V m c main_arg2 (ix3 b k d)
  refine congrArg (V m c main_arg2) ?_
  obtain ⟨-, -, -, -, -, -, e20, e21, e22, -⟩ := idx_facts t
  have hu := u.isLt
  funext a; apply Fin.ext
  match a with
  | ⟨0, _⟩ => show win0_2.index t (0 : Fin 3) * 1 + 1 * u.val = b.val; omega
  | ⟨1, _⟩ => show win0_2.index t (1 : Fin 3) * 2048 + 1 * k.val = k.val; omega
  | ⟨2, _⟩ => show win0_2.index t (2 : Fin 3) * 64 + 1 * d.val = d.val; omega

/-- Where an entry of a point's output block sits in the output array. -/
theorem emb3 (t : Fin cfg0.N) (b : Fin 32) (q : Fin 2048) (u : Fin 1) (p : Fin 512) (d : Fin 64)
    (hb : win0_4.index t (0 : Fin 3) = b.val) (hq : win0_4.index t (1 : Fin 3) * 512 + p.val = q.val) :
    ((cfg0.win 3).blk t).view.emb (ix3 u p d) = ix3 b q d := by
  obtain ⟨-, -, -, -, -, -, -, -, -, e30, e31, e32, -⟩ := idx_facts t
  have hu := u.isLt
  funext a; apply Fin.ext
  match a with
  | ⟨0, _⟩ => show win0_3.index t (0 : Fin 3) * 1 + 1 * u.val = b.val; omega
  | ⟨1, _⟩ => show win0_3.index t (1 : Fin 3) * 512 + 1 * p.val = q.val; omega
  | ⟨2, _⟩ => show win0_3.index t (2 : Fin 3) * 64 + 1 * d.val = d.val; omega

/-- The probabilities a point computes from its query and key blocks are the attention entries of its rows. -/
theorem prob_block (c : Dev nD) (t : Fin cfg0.N) (b : Fin 32) (q : Fin 2048) (p : Fin 512) (k : Fin 2048)
    (hb : win0_4.index t (0 : Fin 3) = b.val) (hq : win0_4.index t (1 : Fin 3) * 512 + p.val = q.val) :
    k0_pay1 (F := Ideal) (iblk m c 0 t) (iblk m c 1 t) (ix2 p k)
      = attnAt (scoreK (V m c main_arg0) (V m c main_arg1)) b q k := by
  refine (Cert.Attn.Body.pay1_apply (iblk m c 0 t) (iblk m c 1 t) p k).trans ?_
  unfold attnAt
  refine congrArg (fun s => softRow s k) (funext fun k' => ?_)
  unfold scoreK
  refine Finset.sum_congr rfl fun d _ => ?_
  rw [q_block m c t b q 0 p d hb hq, k_block m c t b 0 k' d hb]

/-- What a point writes back to the attention array is its block of the attention function of the argument arrays. -/
theorem flushed4_eq (c : Dev nD) (t : Fin cfg0.N) :
    (dats m 0 c).flushed 4 t = ((cfg0.win 4).blk t).view.read (Elt Ideal) (attn (scoreK (V m c main_arg0) (V m c main_arg1))) := by
  rw [Cert.KernelIdeal.Value.flushed4]
  unfold out0_4
  simp only [View.ld_unit_zero (S := S1x512x64) hz3, View.ld_unit_zero (S := S1x2048x64) hz3]
  rw [View.canon_unit_zero hz3]
  funext y
  show k0_pay2 (iblk m c 0 t) (iblk m c 1 t) y = attn (scoreK (V m c main_arg0) (V m c main_arg1)) (((cfg0.win 4).blk t).view.emb y)
  obtain ⟨u, p, k, rfl⟩ : ∃ (u : Fin 1) (p : Fin 512) (k : Fin 2048), y = ix3 u p k := ⟨y 0, y 1, y 2, eq_ix3 y⟩
  obtain ⟨-, -, -, -, -, -, -, -, -, -, -, -, -, h0, h1⟩ := idx_facts t
  have hp := p.isLt
  rw [emb4 t ⟨win0_4.index t (0 : Fin 3), h0⟩ ⟨win0_4.index t (1 : Fin 3) * 512 + p.val, by omega⟩ u p k rfl rfl, attn_ix3]
  refine (Cert.KernelIdeal.Value.piece4_0 (iblk m c 0 t) (iblk m c 1 t) (ix3 u p k)).trans ?_
  show k0_pay1 (iblk m c 0 t) (iblk m c 1 t) (Cert.KernelIdeal.Value.ix4_0 (r0_2.idx (ix3 u p k))) = _
  have e : Cert.KernelIdeal.Value.ix4_0 (r0_2.idx (ix3 u p k)) = ix2 p k := funext fun a => Fin.ext (by
    match a with
    | ⟨0, _⟩ => show 0 + 1 * p.val = p.val; omega
    | ⟨1, _⟩ => show 0 + 1 * k.val = k.val; omega)
  rw [e]
  exact prob_block m c t _ _ p k rfl rfl

/-- What a point writes back to the output array is its block of the output function of the argument arrays. -/
theorem flushed3_eq (c : Dev nD) (t : Fin cfg0.N) :
    (dats m 0 c).flushed 3 t = ((cfg0.win 3).blk t).view.read (Elt Ideal)
      (out (scoreK (V m c main_arg0) (V m c main_arg1)) (V m c main_arg2)) := by
  rw [Cert.KernelIdeal.Value.flushed3]
  unfold out0_3
  simp only [View.ld_unit_zero (S := S1x512x64) hz3, View.ld_unit_zero (S := S1x2048x64) hz3]
  rw [View.canon_unit_zero hz3]
  funext y
  show k0_pay3 (iblk m c 0 t) (iblk m c 1 t) (iblk m c 2 t) y
    = out (scoreK (V m c main_arg0) (V m c main_arg1)) (V m c main_arg2) (((cfg0.win 3).blk t).view.emb y)
  obtain ⟨u, p, d, rfl⟩ : ∃ (u : Fin 1) (p : Fin 512) (d : Fin 64), y = ix3 u p d := ⟨y 0, y 1, y 2, eq_ix3 y⟩
  obtain ⟨-, -, -, -, -, -, -, -, -, -, -, -, -, h0, h1⟩ := idx_facts t
  have hp := p.isLt
  rw [emb3 t ⟨win0_4.index t (0 : Fin 3), h0⟩ ⟨win0_4.index t (1 : Fin 3) * 512 + p.val, by omega⟩ u p d rfl rfl, out_ix3]
  refine (Cert.Attn.Body.pay3_apply (iblk m c 0 t) (iblk m c 1 t) (iblk m c 2 t) u p d).trans ?_
  unfold outAt
  refine Finset.sum_congr rfl fun k _ => ?_
  rw [prob_block m c t ⟨win0_4.index t (0 : Fin 3), h0⟩ ⟨win0_4.index t (1 : Fin 3) * 512 + p.val, by omega⟩ p k rfl rfl,
    v_block m c t ⟨win0_4.index t (0 : Fin 3), h0⟩ 0 k d rfl]

/-- An index of the attention array lies in a point's block iff each coordinate lies in the block's range. -/
theorem mem_blk4 (t : Fin cfg0.N) (i : S32x2048x2048.Idx) :
    i ∈ ((cfg0.win 4).blk t).view.set ↔ ∀ a : Fin 3, win0_4.index t a * S1x512x2048.size a ≤ (i a).val ∧ (i a).val < win0_4.index t a * S1x512x2048.size a + S1x512x2048.size a := by
  show i ∈ ((View.whole main_v0_1).slice (win0_4.rect t)).set ↔ _
  rw [View.set_slice_whole, Rect.mem_set_unit]
  exact Iff.rfl

/-- An index of the output array lies in a point's block iff each coordinate lies in the block's range. -/
theorem mem_blk3 (t : Fin cfg0.N) (i : S32x2048x64.Idx) :
    i ∈ ((cfg0.win 3).blk t).view.set ↔ ∀ a : Fin 3, win0_3.index t a * S1x512x64.size a ≤ (i a).val ∧ (i a).val < win0_3.index t a * S1x512x64.size a + S1x512x64.size a := by
  show i ∈ ((View.whole main_v0_0).slice (win0_3.rect t)).set ↔ _
  rw [View.set_slice_whole, Rect.mem_set_unit]
  exact Iff.rfl

/-- Every entry of the attention array is in the block of the point of its batch and of its row's tile of 512. -/
theorem cover4 (i : S32x2048x2048.Idx) :
    ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 2048 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 2048 ≤ (i 2).val ∧ (i 2).val < win0_4.index t (2 : Fin 3) * 2048 + 2048; omega

/-- Every entry of the output array likewise. -/
theorem cover3 (i : S32x2048x64.Idx) :
    ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  obtain ⟨-, -, -, -, -, -, -, -, -, e30, e31, e32, -⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

/-- After the run the attention array is the attention function of the argument arrays. -/
theorem final4 (c : Dev nD) :
    (dats m 0 c).arrAt 4 cfg0.N = attn (scoreK (V m c main_arg0) (V m c main_arg1)) :=
  (dats m 0 c).arrAt_eq_of_cover 4 _ (fun t _ => flushed4_eq m c t) cover4

/-- After the run the output array is the output function of the argument arrays. -/
theorem final3 (c : Dev nD) :
    (dats m 0 c).arrAt 3 cfg0.N = out (scoreK (V m c main_arg0) (V m c main_arg1)) (V m c main_arg2) :=
  (dats m 0 c).arrAt_eq_of_cover 3 _ (fun t _ => flushed3_eq m c t) cover3

/-- The kernel's run: it terminates without a fault, its two result arrays hold the output and attention functions of the
    argument arrays, and the arguments are unchanged. -/
theorem run : θ_run defs (onTc (τ := τ) (main (F := Ideal))) ⟨m, fun _ => 0, ρ⟩ fun r => ∀ c : Dev nD,
      r.2.mem ((c : Thread nD τ).loc main_v0_0)
        = out (scoreK (m ((c : Thread nD τ).loc main_arg0)) (m ((c : Thread nD τ).loc main_arg1))) (m ((c : Thread nD τ).loc main_arg2))
      ∧ r.2.mem ((c : Thread nD τ).loc main_v0_1)
        = attn (scoreK (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Cert.KernelIdeal.Value.run_blocks m ρ)

end Cert.Attn.Kernel

end
-- ==== Proof.RefValue.lean ====
/-
  The reference program's two results are the attention function, with the score spelt as a quotient.

  The stages are read one at a time at a split index `(b, q, k)`: the quotient stage is the score; the max-reduce
  over the keys is the fold of `max` over the row of scores from `-∞`, and the further `max` with `-∞` changes
  nothing; the exponential stage is `exp (score - row maximum)`; the add-reduce is the row's sum of those
  (the initial value is the zero pattern); the last quotient is the softmax entry, and the last dot product sums
  the entries against the value rows.
-/
import proofs.«133944_j68015102099779_2_alg».proof.Proof.Gen.ReferenceIdeal.Read
import proofs.«133944_j68015102099779_2_alg».proof.Proof.Spec

noncomputable section

open scoped BigOperators

namespace Cert.Attn.Ref

open Idealize.ShloMosaic Idealize.ShloMosaic.ValueIdx Cert.ReferenceIdeal Cert.ReferenceIdeal.Read

/-! ### The composed index functions at split indices -/

theorem lidx_v1_ix3 (b : Fin 32) (q k : Fin 2048) (d : Fin 64) : lidx_main_v1 (ix3 b q k) d = ix3 b q d :=
  funext fun a => Fin.ext (by match a with | ⟨0, _⟩ => rfl | ⟨1, _⟩ => rfl | ⟨2, _⟩ => rfl)

theorem ridx_v1_ix3 (b : Fin 32) (q k : Fin 2048) (d : Fin 64) : ridx_main_v1 (ix3 b q k) d = ix3 b k d :=
  funext fun a => Fin.ext (by match a with | ⟨0, _⟩ => rfl | ⟨1, _⟩ => rfl | ⟨2, _⟩ => rfl)

/-- A row index with the key's coordinate inserted on the reduced axis. -/
theorem lift_ix3 (h : S32x2048x2048.Reduces [2] S32x2048) (b : Fin 32) (q k : Fin 2048) :
    h.lift (ix2 b q) k = ix3 b q k :=
  funext fun a => Fin.ext (by match a with | ⟨0, _⟩ => rfl | ⟨1, _⟩ => rfl | ⟨2, _⟩ => rfl)

/-- The two keepdims broadcasts of the row maximum read the row `(b, q)`. -/
theorem idx_v7_v8_ix3 (b : Fin 32) (q k : Fin 2048) : idx_main_v7 (idx_main_v8 (ix3 b q k)) = ix2 b q :=
  funext fun a => Fin.ext (by match a with | ⟨0, _⟩ => rfl | ⟨1, _⟩ => rfl)

theorem idx_v11_ix2 (b : Fin 32) (q k : Fin 2048) : idx_main_v11 (ix2 b q) k = ix3 b q k :=
  funext fun a => Fin.ext (by match a with | ⟨0, _⟩ => rfl | ⟨1, _⟩ => rfl | ⟨2, _⟩ => rfl)

/-- The two keepdims broadcasts of the row sum read the row `(b, q)`. -/
theorem idx_v12_v13_ix3 (b : Fin 32) (q k : Fin 2048) : idx_main_v12 (idx_main_v13 (ix3 b q k)) = ix2 b q :=
  funext fun a => Fin.ext (by match a with | ⟨0, _⟩ => rfl | ⟨1, _⟩ => rfl)

theorem lidx_v15_ix3 (b : Fin 32) (q : Fin 2048) (d : Fin 64) (k : Fin 2048) :
    lidx_main_v15 (ix3 b q d) k = ix3 b q k :=
  funext fun a => Fin.ext (by match a with | ⟨0, _⟩ => rfl | ⟨1, _⟩ => rfl | ⟨2, _⟩ => rfl)

theorem ridx_v15_ix3 (b : Fin 32) (q : Fin 2048) (d : Fin 64) (k : Fin 2048) :
    ridx_main_v15 (ix3 b q d) k = ix3 b k d :=
  funext fun a => Fin.ext (by match a with | ⟨0, _⟩ => rfl | ⟨1, _⟩ => rfl | ⟨2, _⟩ => rfl)

/-! ### The stages at split indices -/

/-- The quotient stage at `(b, q, k)` is the score: the dot product of the query and key rows over `64 ^ (1/2)`. -/
theorem v3_ix3 (Q K : Arr) (b : Fin 32) (q k : Fin 2048) :
    val_main_v3 (F := Ideal) Q K (ix3 b q k) = scoreR Q K b q k := by
  rw [val_main_v3_apply, val_main_v1_apply, val_main_v2_apply, val_main_v0_apply, val_main_cst_apply, val_main_cst_0_apply]
  simp only [lidx_v1_ix3, ridx_v1_ix3, Ideal.hostDivf_def, Ideal.hostPowf_def, Ideal.ofBits_def]
  rfl

/-- The max-reduce over the keys at `(b, q)` is the row's maximum: the fold of `max` from `-∞` over the keys. -/
theorem v4_ix2 (Q K : Arr) (b : Fin 32) (q : Fin 2048) :
    val_main_v4 (F := Ideal) Q K (ix2 b q) = rowMax (scoreR Q K b q) := by
  have h : S32x2048x2048.Reduces [2] S32x2048 := by decide
  unfold val_main_v4
  refine (Host.reduce_eq_fold_single (FloatOps.maximumf (F := Ideal) (φ := .f32)) (val_main_v3 (F := Ideal) Q K)
    (val_main_cst_1 (F := Ideal)) Facts₀.reducesTo_S32x2048x2048_S32x2048_d2 h Facts₀.h_S_ (ix2 b q)).trans ?_
  have e : (val_main_v3 (F := Ideal) Q K ∘ h.lift (ix2 b q)) = scoreR Q K b q :=
    funext fun k => (congrArg (val_main_v3 (F := Ideal) Q K) (lift_ix3 h b q k)).trans (v3_ix3 Q K b q k)
  rw [e]
  rfl

/-- `-∞` is the least extended real: the maximum with it is the other operand. -/
theorem max_negInf (x : EReal) : max (Ideal.ofBits .f32 0xFF800000#32) x = x := by
  simp [Ideal.ofBits, Ideal.ieee]

/-- The stage after the max-reduce (a further `max` with a splat of `-∞`) is still the row's maximum. -/
theorem v6_ix2 (Q K : Arr) (b : Fin 32) (q : Fin 2048) :
    val_main_v6 (F := Ideal) Q K (ix2 b q) = rowMax (scoreR Q K b q) := by
  rw [val_main_v6_apply, val_main_v5_apply, val_main_cst_2_apply, v4_ix2]
  exact max_negInf _

/-- The exponential stage at `(b, q, k)`. -/
theorem v10_ix3 (Q K : Arr) (b : Fin 32) (q k : Fin 2048) :
    val_main_v10 (F := Ideal) Q K (ix3 b q k) = Ideal.exp (scoreR Q K b q k - rowMax (scoreR Q K b q)) := by
  rw [val_main_v10_apply, val_main_v9_apply, val_main_v8_apply, val_main_v7_apply, idx_v7_v8_ix3, v6_ix2, v3_ix3]
  rfl

/-- The add-reduce over the keys at `(b, q)`: the row's sum of exponentials. -/
theorem v11_ix2 (Q K : Arr) (b : Fin 32) (q : Fin 2048) :
    val_main_v11 (F := Ideal) Q K (ix2 b q)
      = ∑ k : Fin 2048, Ideal.exp (scoreR Q K b q k - rowMax (scoreR Q K b q)) := by
  rw [val_main_v11_apply, val_main_cst_3_apply, Ideal.ofBits_def, Ideal.ofBits_zero_f32, zero_add]
  refine Finset.sum_congr rfl fun k _ => ?_
  rw [idx_v11_ix2, v10_ix3]

/-- The last quotient at `(b, q, k)` is the softmax entry. -/
theorem v14_ix3 (Q K : Arr) (b : Fin 32) (q k : Fin 2048) :
    val_main_v14 (F := Ideal) Q K (ix3 b q k) = attnAt (scoreR Q K) b q k := by
  rw [val_main_v14_apply, val_main_v13_apply, val_main_v12_apply, idx_v12_v13_ix3, v11_ix2, v10_ix3]
  rfl

/-- The reference's attention array. -/
theorem ref_attn (Q K : Arr) :
    val_main_v14 (F := Ideal) Q K = attn (scoreR Q K) := by
  funext i
  obtain ⟨b, q, k, rfl⟩ : ∃ (b : Fin 32) (q k : Fin 2048), i = ix3 b q k := ⟨i 0, i 1, i 2, eq_ix3 i⟩
  rw [v14_ix3, attn_ix3]

/-- The reference's output array. -/
theorem ref_out (Q K V : Arr) :
    val_main_v15 (F := Ideal) Q K V = out (scoreR Q K) V := by
  funext i
  obtain ⟨b, q, d, rfl⟩ : ∃ (b : Fin 32) (q : Fin 2048) (d : Fin 64), i = ix3 b q d := ⟨i 0, i 1, i 2, eq_ix3 i⟩
  rw [val_main_v15_apply, out_ix3]
  unfold outAt
  refine Finset.sum_congr rfl fun k _ => ?_
  rw [lidx_v15_ix3, ridx_v15_ix3, v14_ix3]

end Cert.Attn.Ref

end
-- ==== Proof.ScoreLaw.lean ====
/-
  The two spellings of a score agree on finite arrays.

  The three float patterns involved denote the reals `1/8`, `64` and `1/2`; `64 ^ (1/2) = 8`; division of an extended
  real by the nonzero real `8` is multiplication by `1/8`.  With every entry of the two arrays a real number, both
  scores are coercions of real sums, and in the reals `Σ_d (x_d · 1/8) · y_d = (Σ_d x_d · y_d) · 1/8`.
-/
import proofs.«133944_j68015102099779_2_alg».proof.Proof.Spec

noncomputable section

open scoped BigOperators

namespace Cert.Attn

open Idealize.ShloMosaic Idealize.ShloMosaic.ValueIdx

namespace ScoreLaw

/-- The pattern `0x3E000000` (exponent field `124`, zero fraction) denotes `2 ^ (124 - 127) = 1/8`. -/
theorem ofBits_eighth : Ideal.ofBits .f32 0x3E000000#32 = ((1 / 8 : ℝ) : EReal) := by
  simp [Ideal.ofBits, Ideal.ieee, -EReal.coe_mul]; norm_num

/-- The pattern `0x42800000` (exponent field `133`, zero fraction) denotes `2 ^ (133 - 127) = 64`. -/
theorem ofBits_sixtyfour : Ideal.ofBits .f32 0x42800000#32 = ((64 : ℝ) : EReal) := by
  simp [Ideal.ofBits, Ideal.ieee, -EReal.coe_mul]; norm_num

/-- The pattern `0x3F000000` (exponent field `126`, zero fraction) denotes `2 ^ (126 - 127) = 1/2`. -/
theorem ofBits_half : Ideal.ofBits .f32 0x3F000000#32 = ((1 / 2 : ℝ) : EReal) := by
  simp [Ideal.ofBits, Ideal.ieee, -EReal.coe_mul]; norm_num

/-- `64 ^ (1/2) = (8 ^ 2) ^ (1/2) = 8`. -/
theorem rpow_sixtyfour_half : Real.rpow 64 (1 / 2) = 8 := by
  rw [show (64 : ℝ) = 8 ^ (2 : ℝ) by norm_num, Real.rpow_eq_pow, ← Real.rpow_mul (by norm_num)]; norm_num

/-- The coercion of the reals into the extended reals commutes with finite sums. -/
theorem coe_sum {ι : Type*} (s : Finset ι) (f : ι → ℝ) :
    ((∑ d ∈ s, f d : ℝ) : EReal) = ∑ d ∈ s, (f d : EReal) := by
  classical
  induction s using Finset.induction_on with
  | empty => simp
  | insert a s ha ih => rw [Finset.sum_insert ha, Finset.sum_insert ha, EReal.coe_add, ih]

/-- The divisor `64 ^ (1/2)`, spelt with the float patterns, is the real `8`. -/
theorem divisor_eq :
    Ideal.pow (Ideal.ofBits .f32 0x42800000#32) (Ideal.ofBits .f32 0x3F000000#32) = ((8 : ℝ) : EReal) := by
  rw [ofBits_sixtyfour, ofBits_half, Ideal.pow_coe_coe, rpow_sixtyfour_half]

end ScoreLaw

/-- On arrays whose every entry is a real number, scaling the query row by `1/8` before the dot product gives the dot
    product divided by `64 ^ (1/2) = 8`. -/
theorem scoreK_eq_scoreR (Q K : Arr) (hQ : ∀ i, ∃ r : ℝ, Q i = (r : EReal)) (hK : ∀ i, ∃ r : ℝ, K i = (r : EReal)) :
    scoreK Q K = scoreR Q K := by
  choose fQ hfQ using hQ
  choose fK hfK using hK
  funext b q k
  unfold scoreK scoreR
  rw [ScoreLaw.divisor_eq, Ideal.div_coe (by norm_num : (8 : ℝ) ≠ 0), ScoreLaw.ofBits_eighth]
  simp only [hfQ, hfK, ← EReal.coe_mul, ← ScoreLaw.coe_sum]
  -- both sides are now coercions of real sums
  congr 1
  rw [Finset.sum_mul]
  refine Finset.sum_congr rfl fun d _ => ?_
  ring

end Cert.Attn

end
-- ==== Proof.Finite.lean ====
/-
  What the precondition says of the argument arrays: every entry is a real number.
-/
import proofs.«133944_j68015102099779_2_alg».proof.Pre_finite_inputs
import proofs.«133944_j68015102099779_2_alg».proof.Proof.Gen.Pre_finite_inputs
import proofs.«133944_j68015102099779_2_alg».proof.Proof.Spec
import Idealize.ShloMosaic.Lib.ReduceAll

noncomputable section

namespace Cert.Attn

open Idealize.ShloMosaic Idealize.ShloMosaic.ValueIdx

/-- The float pattern `0x7F800000` is `+∞`. -/
private theorem posInf_word : Ideal.ofBits .f32 0x7F800000#32 = (⊤ : EReal) := by
  simp [Ideal.ofBits, Ideal.ieee]

/-- An extended real whose absolute value `max x (-x)` is strictly below `+∞` is a real number: `-∞` and `+∞` both have
    absolute value `+∞`, which is not below itself. -/
private theorem real_of_abs_lt_posInf (x : EReal)
    (h : Ideal.cmp .olt (max x (-x)) (Ideal.ofBits .f32 0x7F800000#32) = 1#1) : ∃ r : ℝ, x = (r : EReal) := by
  rw [posInf_word] at h
  induction x using EReal.rec with
  | bot => simp [Ideal.cmp] at h
  | coe r => exact ⟨r, rfl⟩
  | top => simp [Ideal.cmp] at h

/-- One entry of the compared array: `|x i| < +∞`, the `+∞` a scalar constant broadcast to the array's shape, read at `i`,
    is the comparison of `max (x i) (-(x i))` with the constant's value. -/
private theorem entry_real (x : Arr)
    (hb : Cert.Pre_finite_inputs.S_.BroadcastsInDim Cert.Pre_finite_inputs.S32x2048x64
      (![] : Fin 0 → Fin Cert.Pre_finite_inputs.S32x2048x64.rank))
    (i : Cert.Pre_finite_inputs.S32x2048x64.Idx)
    (h : cmpf .olt (Host.absf (F := Ideal) x)
        (broadcastInDim Cert.Pre_finite_inputs.S32x2048x64 ![] hb
          (constant (F := Ideal) Cert.Pre_finite_inputs.S_ .f32 0x7F800000#32)) i = 1#1) :
    ∃ r : ℝ, x i = (r : EReal) :=
  real_of_abs_lt_posInf (x i) h

/-- If the printed precondition evaluates to all ones on three arrays, every entry of each is a real number. -/
theorem finite_of_pre (x0 x1 x2 : Arr)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  -- a shape of rank zero has exactly one index
  haveI : Subsingleton Cert.Pre_finite_inputs.S_.Idx := ⟨fun a b => funext fun d => d.elim0⟩
  -- the predicate's one result word, with its chain of operations in view
  have e := congrFun h ValueIdx.ix0
  dsimp only [Cert.Pre_finite_inputs.fn] at e
  -- the result is the conjunction of three reductions by `and`, each over a whole array
  simp only [andi, IntOp.andi_eq_one] at e
  obtain ⟨⟨e0, e1⟩, e2⟩ := e
  -- a reduction by `and` over all axes that is one met a one at every entry
  exact ⟨fun i => entry_real x0 _ i (Host.reduce_andi_all _ _ _ _ _ e0 i),
    fun i => entry_real x1 _ i (Host.reduce_andi_all _ _ _ _ _ e1 i),
    fun i => entry_real x2 _ i (Host.reduce_andi_all _ _ _ _ _ e2 i)⟩

end Cert.Attn

end
-- ==== Proof.lean ====
/-
  Scaled dot-product attention: a tiled kernel against its plain reference, at the extended reals.

  Both programs take query, key and value arrays of 32 batches of 2048 rows of width 64 and return the output array
  and the 2048 × 2048 attention matrix of each batch.  The kernel walks a grid of 32 × 4 points; at a point it holds
  512 query rows and all 2048 key and value rows of one batch, scales the query rows by `1/8`, takes their dot
  products with the key rows, normalises each row of scores by the stabilised softmax (subtract the row's maximum,
  exponentiate, divide by the row's sum), writes those probabilities to its block of the attention array, and writes
  their products with the value rows to its block of the output array.  The reference takes all dot products at once,
  divides them by `64 ^ (1/2)`, and applies the same softmax and the same final product.

  At the exact values the two differ only in the score: `Σ_d (q_d · 1/8) · k_d` against `(Σ_d q_d · k_d) / 8`.  These
  agree when the entries are real numbers (distributing a factor over a sum can fail at the infinities), which is what
  the precondition gives.  The blocks of the two result arrays tile them, so each array after the kernel's run is one
  function of the argument arrays (Proof/Blocks.lean, over the body's values at an entry in Proof/Payload.lean); the
  reference's results are the same function with the other score (Proof/RefValue.lean); the scores agree
  (Proof/ScoreLaw.lean) on finite arrays (Proof/Finite.lean).  The specification both sides meet is Proof/Spec.lean.
-/
import proofs.«133944_j68015102099779_2_alg».proof.Defs
import proofs.«133944_j68015102099779_2_alg».proof.Proof.Gen.Kernel
import proofs.«133944_j68015102099779_2_alg».proof.Proof.Gen.Kernel.Frame
import proofs.«133944_j68015102099779_2_alg».proof.Proof.Gen.KernelIdeal
import proofs.«133944_j68015102099779_2_alg».proof.Proof.Gen.KernelIdeal.Frame
import proofs.«133944_j68015102099779_2_alg».proof.Proof.Gen.KernelIdeal.Value
import proofs.«133944_j68015102099779_2_alg».proof.Proof.Gen.ReferenceIdeal
import proofs.«133944_j68015102099779_2_alg».proof.Proof.Gen.ReferenceIdeal.Run
import proofs.«133944_j68015102099779_2_alg».proof.Proof.Gen.ReferenceIdeal.Read
import proofs.«133944_j68015102099779_2_alg».proof.Proof.Gen.Pre_finite_inputs
import proofs.«133944_j68015102099779_2_alg».proof.Proof.Blocks
import proofs.«133944_j68015102099779_2_alg».proof.Proof.RefValue
import proofs.«133944_j68015102099779_2_alg».proof.Proof.ScoreLaw
import proofs.«133944_j68015102099779_2_alg».proof.Proof.Finite
import Idealize.ShloMosaic.Adequacy
import Idealize.ShloMosaic.Init

noncomputable section

namespace Cert.Proof

open Idealize.ShloMosaic Idealize.SL.Sem

/-- The kernel as printed runs to completion without a fault and leaves its arguments as they were. -/
theorem frame_k : Cert.frame_Kernel := fun m ρ _ => Cert.Kernel.Gen.frame m ρ

/-- So does the kernel read at the exact values. -/
theorem frame_ki : Cert.frame_KernelIdeal := fun m ρ _ => Cert.KernelIdeal.Gen.frame m ρ

/-- The reference is a straight line of host operations: its run, with the two results forgotten. -/
theorem frame_ri : Cert.frame_ReferenceIdeal := fun m ρ _ =>
  (θ_run Cert.ReferenceIdeal.defs _ _).mono (fun _ h c => (h c).2.2) (Cert.ReferenceIdeal.Value.run (F := Ideal) m ρ)

/-- Nothing of the kernel was rewritten on the way to the exact values. -/
theorem preserves : Cert.preserves_Kernel_KernelIdeal := trivial

/-- From memories agreeing on finite arguments both programs end with the output and attention functions of those
    arguments: the kernel with the query rows scaled before the dot products, the reference with the dot products
    divided afterwards, which is the same score on real entries. -/
theorem algebraic : Cert.algebraic_KernelIdeal_ReferenceIdeal := by
  intro m ρ m' ρ' hpre hagree
  refine ⟨_, _, Cert.Attn.Kernel.run m ρ, ?_⟩
  refine (θ_run Cert.ReferenceIdeal.defs _ _).mono (fun _ h c => ?_) (Cert.ReferenceIdeal.Value.run (F := Ideal) m' ρ')
  obtain ⟨h15, h14, hrest⟩ := h c
  obtain ⟨hQ, hK, -⟩ := Cert.Attn.finite_of_pre _ _ _ (hpre c)
  refine ⟨h15.trans ?_, h14.trans ?_, hrest⟩
  · rw [Cert.ReferenceIdeal.Read.val_main_v15_eq, Cert.Attn.Ref.ref_out, (hagree c).1, (hagree c).2.1, (hagree c).2.2,
      Cert.Attn.scoreK_eq_scoreR _ _ hQ hK]
  · rw [Cert.ReferenceIdeal.Read.val_main_v14_eq, Cert.Attn.Ref.ref_attn, (hagree c).1, (hagree c).2.1,
      Cert.Attn.scoreK_eq_scoreR _ _ hQ hK]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
